-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "one_minus_rw" .f32 0x3F7FBE77#32 ((8581344657 / 8589934592 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩

abbrev nBuf : Space → Nat
  | .hbm => 33
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S128x128, .f32⟩
  | .hbm, ⟨25, _⟩ => ⟨S128x128, .bf16⟩
  | .hbm, ⟨26, _⟩ => ⟨S128x128, .f32⟩
  | .hbm, ⟨27, _⟩ => ⟨S128x128, .bf16⟩
  | .hbm, ⟨28, _⟩ => ⟨S128x128, .f32⟩
  | .hbm, ⟨29, _⟩ => ⟨S128x128, .bf16⟩
  | .hbm, ⟨30, _⟩ => ⟨S1x128, .f32⟩
  | .hbm, ⟨31, _⟩ => ⟨S1x128, .f32⟩
  | .hbm, ⟨32, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S128x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S128x128, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The layer's output as one function of its arguments, entry by entry, over the extended reals.

  For node features x [100000, 128], their neighbourhood sums agg [100000, 128], three weight matrices
  Wl, Wr, Wres [128, 128] applied as x ↦ x · Wᵀ, and two bias vectors bl, bres [128], entry (r, j) of the output is

      w · ((Σₖ agg(r,k) · Wl(j,k) + bl(j)) + Σₖ x(r,k) · Wr(j,k))  +  (1 - w) · (Σₖ x(r,k) · Wres(j,k) + bres(j))

  with w the residual weight: the aggregated branch and the root branch are mixed, then blended with the residual
  linear branch. The sums, the sum of the three terms and the two products are taken in exactly this order and
  grouping, so no law of arithmetic beyond the value of 1 - w is needed to recognise it in either program, and in
  particular none that fails at an infinite entry.
-/
import Idealize.ShloMosaic.Lib.ValueIdx
import Idealize.ShloMosaic.PureOps.Ideal

noncomputable section

namespace Cert.SageLayer

open Idealize.ShloMosaic Idealize.ShloMosaic.ValueIdx

/-- Node-by-feature arrays: 100000 nodes, 128 features. -/
abbrev Rows : Shape := ⟨2, ![100000, 128]⟩
/-- A weight matrix, output feature by input feature. -/
abbrev Square : Shape := ⟨2, ![128, 128]⟩
/-- A bias vector over the output features. -/
abbrev Feat : Shape := ⟨1, ![128]⟩

/-- The residual weight: the single-precision number nearest to 0.001, as the real its pattern denotes. -/
def weight : EReal := Ideal.ofBits .f32 0x3A83126F#32

/-- Its complement 1 - weight, as a rational: (2^33 - 8589935) / 2^33. -/
def coweight : EReal := ((8581344657 / 8589934592 : ℝ) : EReal)

/-- Entry `(r, j)` of the layer's output. -/
def entry (x agg : Rows.Idx → EReal) (Wl Wr Wres : Square.Idx → EReal) (bl bres : Feat.Idx → EReal)
    (r : Fin 100000) (j : Fin 128) : EReal :=
  weight * ((∑ k : Fin 128, agg (ix2 r k) * Wl (ix2 j k) + bl (ix1 j)) + ∑ k : Fin 128, x (ix2 r k) * Wr (ix2 j k))
    + coweight * (∑ k : Fin 128, x (ix2 r k) * Wres (ix2 j k) + bres (ix1 j))

/-- The layer's output array. -/
def layer (x agg : Rows.Idx → EReal) (Wl Wr Wres : Square.Idx → EReal) (bl bres : Feat.Idx → EReal) :
    Rows.Idx → EReal :=
  fun i => entry x agg Wl Wr Wres bl bres (i 0) (i 1)

theorem layer_apply (x agg : Rows.Idx → EReal) (Wl Wr Wres : Square.Idx → EReal) (bl bres : Feat.Idx → EReal)
    (r : Fin 100000) (j : Fin 128) :
    layer x agg Wl Wr Wres bl bres (ix2 r j) = entry x agg Wl Wr Wres bl bres r j := rfl

end Cert.SageLayer

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.BlockEntry.lean ====
/-
  One grid step's arithmetic at an entry. A step holds a block of 4000 nodes: their features v0 and neighbourhood
  sums v1 (4000 × 128), the three transposed weights v5, v7, v9 (128 × 128, input feature by output feature), and the
  two biases v11, v13 as rows (1 × 128). Entry (p, q) of what the step stores is

      w · ((Σₖ v1(p,k) · v5(k,q) + v11(0,q)) + Σₖ v0(p,k) · v7(k,q))  +  (1 - w) · (Σₖ v0(p,k) · v9(k,q) + v13(0,q)) :

  each product of a 4000 × 128 block by a 128 × 128 matrix into a zero accumulator is the plain sum over the contracted
  coordinate, a bias row repeated down the block is read at column q, narrowing a value to a shorter float format
  and recasting an array to its own shape change nothing over the extended reals, and the constant standing for
  1 - w is that rational.
-/
import proofs.«117386_j25460566130852_1_alg».proof.Proof.Gen.KernelIdeal.Skeleton
import proofs.«117386_j25460566130852_1_alg».proof.Proof.LibRowOps
import proofs.«117386_j25460566130852_1_alg».proof.Proof.Spec
import Idealize.ShloMosaic.Lib.Pipeline.Value
import Idealize.ShloMosaic.Lib.ValueIdx
import Idealize.ShloMosaic.PureOps.IdealRules

noncomputable section

namespace Cert.SageLayer.Block

open Cert.KernelIdeal Cert.KernelIdeal.Gen
open Idealize.ShloMosaic Idealize.ShloMosaic.ValueIdx

/-- The constant the residual branch is multiplied by stands for the rational 1 - w. -/
theorem named_coweight :
    Named.named (F := Ideal) Cert.KernelIdeal.κ "one_minus_rw" (φ := .f32) 0x3F7FBE77#32 = coweight :=
  IdealRules.named_const.ideal_named_scalar _ _ _ _ rfl

/-- A block times a 128 × 128 matrix, accumulated from zero, at entry (p, q): the sum over the contracted coordinate. -/
theorem product_apply (A : FVec Ideal S4000x128 .bf16) (B : FVec Ideal S128x128 .bf16) (p : Fin 4000) (q : Fin 128) :
    matmul dot_S4000x128_S128x128_S4000x128_1_0_0_1_n_n none A B
        (constant (F := Ideal) S4000x128 .f32 0x00000000#32) (ix2 p q)
      = ∑ k : Fin 128, A (ix2 p k) * B (ix2 k q) :=
  Cert.KernelBody.matmul_plain_zero_apply dot_S4000x128_S128x128_S4000x128_1_0_0_1_n_n_wf none A B p q

/-- A bias row repeated down the block, at entry (p, q): the row's entry q. -/
theorem row_apply (v : FVec Ideal S1x128 .f32) (p : Fin 4000) (q : Fin 128) :
    broadcastTo S4000x128 v broadcasts_S1x128_S4000x128 (ix2 p q) = v (ix2 (0 : Fin 1) q) :=
  Cert.KernelBody.broadcastTo_row_apply v broadcasts_S1x128_S4000x128 p q

/-- What a step stores, at entry (p, q), from the blocks it loads. -/
theorem payload_apply (v0 v1 : FVec Ideal S4000x128 .f32) (v5 v7 v9 : FVec Ideal S128x128 .bf16)
    (v11 v13 : FVec Ideal S1x128 .f32) (p : Fin 4000) (q : Fin 128) :
    k0_pay1 (F := Ideal) v0 v1 v5 v7 v9 v11 v13 (ix2 p q)
      = weight * ((∑ k : Fin 128, v1 (ix2 p k) * v5 (ix2 k q) + v11 (ix2 (0 : Fin 1) q))
            + ∑ k : Fin 128, v0 (ix2 p k) * v7 (ix2 k q))
          + coweight * (∑ k : Fin 128, v0 (ix2 p k) * v9 (ix2 k q) + v13 (ix2 (0 : Fin 1) q)) := by
  unfold k0_pay1
  simp only [shapeCast_self, addf_apply, mulf_apply, broadcast_apply, product_apply, row_apply, truncf_apply,
    named_coweight]
  rfl

end Cert.SageLayer.Block

end
-- ==== Proof.Staged.lean ====
/-
  The layer over the arrays as the grid finds them — the weights already transposed (input feature by output
  feature) and the biases laid out as rows — and what one grid step leaves in the output's buffer, at an entry, from
  the seven blocks it staged: its single store covers the whole buffer and each load reads a staged block whole, so
  the buffer is the step's arithmetic of the blocks.
-/
import proofs.«117386_j25460566130852_1_alg».proof.Proof.Gen.KernelIdeal.Frame
import proofs.«117386_j25460566130852_1_alg».proof.Proof.BlockEntry
import proofs.«117386_j25460566130852_1_alg».proof.Proof.Spec
import Idealize.ShloMosaic.Lib.Pipeline.Value
import Idealize.ShloMosaic.Lib.ValueIdx

noncomputable section

namespace Cert.SageLayer.Kernel

open Cert.KernelIdeal Cert.KernelIdeal.Gen
open Idealize.ShloMosaic Idealize.ShloMosaic.TcCoe Idealize.SL.Sem Idealize.ShloMosaic.ValueIdx
open Idealize.ShloMosaic.Pipeline (Dat)

/-- A bias laid out as a row. -/
abbrev RowVec : Shape := ⟨2, ![1, 128]⟩

/-! ## The layer over the arrays as the grid finds them -/

/-- Entry (r, j) of the layer when the weights come transposed (input feature by output feature) and the biases
    as rows. -/
def stagedEntry (x agg : Rows.Idx → EReal) (WlT : Square.Idx → EReal) (bl2 : RowVec.Idx → EReal)
    (WrT WresT : Square.Idx → EReal) (bres2 : RowVec.Idx → EReal) (r : Fin 100000) (j : Fin 128) : EReal :=
  weight * ((∑ k : Fin 128, agg (ix2 r k) * WlT (ix2 k j) + bl2 (ix2 (0 : Fin 1) j))
      + ∑ k : Fin 128, x (ix2 r k) * WrT (ix2 k j))
    + coweight * (∑ k : Fin 128, x (ix2 r k) * WresT (ix2 k j) + bres2 (ix2 (0 : Fin 1) j))

/-- The array of those entries. -/
def staged (x agg : Rows.Idx → EReal) (WlT : Square.Idx → EReal) (bl2 : RowVec.Idx → EReal)
    (WrT WresT : Square.Idx → EReal) (bres2 : RowVec.Idx → EReal) : Rows.Idx → EReal :=
  fun i => stagedEntry x agg WlT bl2 WrT WresT bres2 (i 0) (i 1)

theorem staged_apply (x agg : Rows.Idx → EReal) (WlT : Square.Idx → EReal) (bl2 : RowVec.Idx → EReal)
    (WrT WresT : Square.Idx → EReal) (bres2 : RowVec.Idx → EReal) (r : Fin 100000) (j : Fin 128) :
    staged x agg WlT bl2 WrT WresT bres2 (ix2 r j) = stagedEntry x agg WlT bl2 WrT WresT bres2 r j := rfl

/-! ## What a step leaves in the output's buffer -/

theorem zero_offsets : (![0, 0] : Fin 2 → Nat) = fun _ => 0 := funext fun a => by fin_cases a <;> rfl

/-- The buffer a step leaves, at entry (p, q), from the seven blocks it staged: its one store covers the buffer, and
    each load reads a staged block whole. -/
theorem stored_apply (x0 x1 : FVec Ideal S4000x128 .f32) (x2 : FVec Ideal S128x128 .bf16) (x3 : FVec Ideal S1x128 .f32)
    (x4 x5 : FVec Ideal S128x128 .bf16) (x6 : FVec Ideal S1x128 .f32) (p : Fin 4000) (q : Fin 128) :
    out0_7 (F := Ideal) x0 x1 x2 x3 x4 x5 x6 (ix2 p q)
      = weight * ((∑ k : Fin 128, x1 (ix2 p k) * x2 (ix2 k q) + x3 (ix2 (0 : Fin 1) q))
            + ∑ k : Fin 128, x0 (ix2 p k) * x4 (ix2 k q))
          + coweight * (∑ k : Fin 128, x0 (ix2 p k) * x5 (ix2 k q) + x6 (ix2 (0 : Fin 1) q)) := by
  unfold out0_7
  rw [View.canon_unit_zero zero_offsets]
  simp only [View.ld_unit_zero (S := S4000x128) zero_offsets, View.ld_unit_zero (S := S128x128) zero_offsets,
    View.ld_unit_zero (S := S1x128) zero_offsets]
  exact Block.payload_apply x0 x1 x2 x4 x5 x3 x6 p q

end Cert.SageLayer.Kernel

end
-- ==== Proof.BlockReads.lean ====
/-
  Which part of its array each staged block is. The grid has 25 steps; at step t the features, the neighbourhood sums
  and the output are staged by row blocks of 4000, block t, so entry (p, k) of the block is entry (4000·t + p, k) of
  the array; the three transposed weights and the two bias rows are staged whole at every step, so a block entry is
  the array's entry at the same place. A block's coordinate on an axis is always block index × block size + the
  coordinate inside the block. Each reading is first stated for an arbitrary array in the window's place — it is a fact
  about positions only — and then read at the array the grid finds there.
-/
import proofs.«117386_j25460566130852_1_alg».proof.Proof.Gen.KernelIdeal.Frame
import Idealize.ShloMosaic.Lib.Pipeline.Value
import Idealize.ShloMosaic.Lib.ValueIdx

noncomputable section

namespace Cert.SageLayer.Kernel

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The index maps over the 25 steps: the features, the neighbourhood sums and the output move down the rows with
    the step, at column block 0; the weights and the biases stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 0 at step t reads ANY 100000 × 128 array at rows 4000·t …: block entry (p, k) is array entry (4000·t + p, k). -/
theorem features_read (X : S100000x128.Idx → EReal) (t : Fin cfg0.N) (y : S4000x128.Idx) (k : S100000x128.Idx)
    (hk0 : (k 0).val = 4000 * t.val + (y 0).val) (hk1 : (k 1).val = (y 1).val) :
    ((cfg0.win 0).blk t).view.read (Elt Ideal) X y = X k := by
  obtain ⟨a0, a1, b0, b1, c0, c1, d0, d1, e0, e1, f0, f1, g0, g1, h0, h1⟩ := index_facts t
  rw [View.read_apply]
  show X _ = X k
  refine congrArg X ?_
  funext a
  apply Fin.ext
  match a with
  | ⟨0, _⟩ => show win0_0.index t (0 : Fin 2) * 4000 + 1 * (y 0).val = (k 0).val; rw [hk0]; omega
  | ⟨1, _⟩ => show win0_0.index t (1 : Fin 2) * 128 + 1 * (y 1).val = (k 1).val; rw [hk1]; omega

/-- Step t's block of the features is rows 4000·t … of the feature array as the grid finds it. -/
theorem features_block (c : Dev nD) (t : Fin cfg0.N) (y : S4000x128.Idx) (k : S100000x128.Idx)
    (hk0 : (k 0).val = 4000 * t.val + (y 0).val) (hk1 : (k 1).val = (y 1).val) :
    (iblk m c 0 t : S4000x128.Idx → EReal) y = (V m c main_arg0 : S100000x128.Idx → EReal) k := by
  unfold iblk
  exact features_read (V m c main_arg0) t y k hk0 hk1

/-- Window 1 at step t reads any 100000 × 128 array at rows 4000·t …. -/
theorem sums_read (X : S100000x128.Idx → EReal) (t : Fin cfg0.N) (y : S4000x128.Idx) (k : S100000x128.Idx)
    (hk0 : (k 0).val = 4000 * t.val + (y 0).val) (hk1 : (k 1).val = (y 1).val) :
    ((cfg0.win 1).blk t).view.read (Elt Ideal) X y = X k := by
  obtain ⟨a0, a1, b0, b1, c0, c1, d0, d1, e0, e1, f0, f1, g0, g1, h0, h1⟩ := index_facts t
  rw [View.read_apply]
  show X _ = X k
  refine congrArg X ?_
  funext a
  apply Fin.ext
  match a with
  | ⟨0, _⟩ => show win0_1.index t (0 : Fin 2) * 4000 + 1 * (y 0).val = (k 0).val; rw [hk0]; omega
  | ⟨1, _⟩ => show win0_1.index t (1 : Fin 2) * 128 + 1 * (y 1).val = (k 1).val; rw [hk1]; omega

/-- Step t's block of the neighbourhood sums is rows 4000·t … of their array. The array is only named here, never opened. -/
theorem sums_block (c : Dev nD) (t : Fin cfg0.N) (y : S4000x128.Idx) (k : S100000x128.Idx)
    (hk0 : (k 0).val = 4000 * t.val + (y 0).val) (hk1 : (k 1).val = (y 1).val) :
    (iblk m c 1 t : S4000x128.Idx → EReal) y = (V m c main_v13 : S100000x128.Idx → EReal) k := by
  unfold iblk
  exact sums_read (V m c main_v13) t y k hk0 hk1

/-- Window 2 reads any 128 × 128 array whole, at every step. -/
theorem wl_read (X : S128x128.Idx → EReal) (t : Fin cfg0.N) (y : S128x128.Idx) (k : S128x128.Idx)
    (hk0 : (k 0).val = (y 0).val) (hk1 : (k 1).val = (y 1).val) :
    ((cfg0.win 2).blk t).view.read (Elt Ideal) X y = X k := by
  obtain ⟨a0, a1, b0, b1, c0, c1, d0, d1, e0, e1, f0, f1, g0, g1, h0, h1⟩ := index_facts t
  rw [View.read_apply]
  show X _ = X k
  refine congrArg X ?_
  funext a
  apply Fin.ext
  match a with
  | ⟨0, _⟩ => show win0_2.index t (0 : Fin 2) * 128 + 1 * (y 0).val = (k 0).val; rw [hk0]; omega
  | ⟨1, _⟩ => show win0_2.index t (1 : Fin 2) * 128 + 1 * (y 1).val = (k 1).val; rw [hk1]; omega

/-- Every step stages the first transposed weight whole. -/
theorem wl_block (c : Dev nD) (t : Fin cfg0.N) (y : S128x128.Idx) (k : S128x128.Idx)
    (hk0 : (k 0).val = (y 0).val) (hk1 : (k 1).val = (y 1).val) :
    (iblk m c 2 t : S128x128.Idx → EReal) y = (V m c main_v15 : S128x128.Idx → EReal) k := by
  unfold iblk
  exact wl_read (V m c main_v15) t y k hk0 hk1

/-- Window 3 reads any 1 × 128 row whole, at every step. -/
theorem bl_read (X : S1x128.Idx → EReal) (t : Fin cfg0.N) (y : S1x128.Idx) (k : S1x128.Idx)
    (hk0 : (k 0).val = (y 0).val) (hk1 : (k 1).val = (y 1).val) :
    ((cfg0.win 3).blk t).view.read (Elt Ideal) X y = X k := by
  obtain ⟨a0, a1, b0, b1, c0, c1, d0, d1, e0, e1, f0, f1, g0, g1, h0, h1⟩ := index_facts t
  rw [View.read_apply]
  show X _ = X k
  refine congrArg X ?_
  funext a
  apply Fin.ext
  match a with
  | ⟨0, _⟩ => show win0_3.index t (0 : Fin 2) * 1 + 1 * (y 0).val = (k 0).val; rw [hk0]; omega
  | ⟨1, _⟩ => show win0_3.index t (1 : Fin 2) * 128 + 1 * (y 1).val = (k 1).val; rw [hk1]; omega

/-- Every step stages the first bias row whole. -/
theorem bl_block (c : Dev nD) (t : Fin cfg0.N) (y : S1x128.Idx) (k : S1x128.Idx)
    (hk0 : (k 0).val = (y 0).val) (hk1 : (k 1).val = (y 1).val) :
    (iblk m c 3 t : S1x128.Idx → EReal) y = (V m c main_v20 : S1x128.Idx → EReal) k := by
  unfold iblk
  exact bl_read (V m c main_v20) t y k hk0 hk1

/-- Window 4 reads any 128 × 128 array whole, at every step. -/
theorem wr_read (X : S128x128.Idx → EReal) (t : Fin cfg0.N) (y : S128x128.Idx) (k : S128x128.Idx)
    (hk0 : (k 0).val = (y 0).val) (hk1 : (k 1).val = (y 1).val) :
    ((cfg0.win 4).blk t).view.read (Elt Ideal) X y = X k := by
  obtain ⟨a0, a1, b0, b1, c0, c1, d0, d1, e0, e1, f0, f1, g0, g1, h0, h1⟩ := index_facts t
  rw [View.read_apply]
  show X _ = X k
  refine congrArg X ?_
  funext a
  apply Fin.ext
  match a with
  | ⟨0, _⟩ => show win0_4.index t (0 : Fin 2) * 128 + 1 * (y 0).val = (k 0).val; rw [hk0]; omega
  | ⟨1, _⟩ => show win0_4.index t (1 : Fin 2) * 128 + 1 * (y 1).val = (k 1).val; rw [hk1]; omega

/-- Every step stages the second transposed weight whole. -/
theorem wr_block (c : Dev nD) (t : Fin cfg0.N) (y : S128x128.Idx) (k : S128x128.Idx)
    (hk0 : (k 0).val = (y 0).val) (hk1 : (k 1).val = (y 1).val) :
    (iblk m c 4 t : S128x128.Idx → EReal) y = (V m c main_v17 : S128x128.Idx → EReal) k := by
  unfold iblk
  exact wr_read (V m c main_v17) t y k hk0 hk1

/-- Window 5 reads any 128 × 128 array whole, at every step. -/
theorem wres_read (X : S128x128.Idx → EReal) (t : Fin cfg0.N) (y : S128x128.Idx) (k : S128x128.Idx)
    (hk0 : (k 0).val = (y 0).val) (hk1 : (k 1).val = (y 1).val) :
    ((cfg0.win 5).blk t).view.read (Elt Ideal) X y = X k := by
  obtain ⟨a0, a1, b0, b1, c0, c1, d0, d1, e0, e1, f0, f1, g0, g1, h0, h1⟩ := index_facts t
  rw [View.read_apply]
  show X _ = X k
  refine congrArg X ?_
  funext a
  apply Fin.ext
  match a with
  | ⟨0, _⟩ => show win0_5.index t (0 : Fin 2) * 128 + 1 * (y 0).val = (k 0).val; rw [hk0]; omega
  | ⟨1, _⟩ => show win0_5.index t (1 : Fin 2) * 128 + 1 * (y 1).val = (k 1).val; rw [hk1]; omega

/-- Every step stages the third transposed weight whole. -/
theorem wres_block (c : Dev nD) (t : Fin cfg0.N) (y : S128x128.Idx) (k : S128x128.Idx)
    (hk0 : (k 0).val = (y 0).val) (hk1 : (k 1).val = (y 1).val) :
    (iblk m c 5 t : S128x128.Idx → EReal) y = (V m c main_v19 : S128x128.Idx → EReal) k := by
  unfold iblk
  exact wres_read (V m c main_v19) t y k hk0 hk1

/-- Window 6 reads any 1 × 128 row whole, at every step. -/
theorem bres_read (X : S1x128.Idx → EReal) (t : Fin cfg0.N) (y : S1x128.Idx) (k : S1x128.Idx)
    (hk0 : (k 0).val = (y 0).val) (hk1 : (k 1).val = (y 1).val) :
    ((cfg0.win 6).blk t).view.read (Elt Ideal) X y = X k := by
  obtain ⟨a0, a1, b0, b1, c0, c1, d0, d1, e0, e1, f0, f1, g0, g1, h0, h1⟩ := index_facts t
  rw [View.read_apply]
  show X _ = X k
  refine congrArg X ?_
  funext a
  apply Fin.ext
  match a with
  | ⟨0, _⟩ => show win0_6.index t (0 : Fin 2) * 1 + 1 * (y 0).val = (k 0).val; rw [hk0]; omega
  | ⟨1, _⟩ => show win0_6.index t (1 : Fin 2) * 128 + 1 * (y 1).val = (k 1).val; rw [hk1]; omega

/-- Every step stages the second bias row whole. -/
theorem bres_block (c : Dev nD) (t : Fin cfg0.N) (y : S1x128.Idx) (k : S1x128.Idx)
    (hk0 : (k 0).val = (y 0).val) (hk1 : (k 1).val = (y 1).val) :
    (iblk m c 6 t : S1x128.Idx → EReal) y = (V m c main_v21 : S1x128.Idx → EReal) k := by
  unfold iblk
  exact bres_read (V m c main_v21) t y k hk0 hk1

/-! ## The output's block -/

/-- Window 7 at step t reads any 100000 × 128 array at rows 4000·t …. -/
theorem out_read (X : S100000x128.Idx → EReal) (t : Fin cfg0.N) (y : S4000x128.Idx) (k : S100000x128.Idx)
    (hk0 : (k 0).val = 4000 * t.val + (y 0).val) (hk1 : (k 1).val = (y 1).val) :
    ((cfg0.win 7).blk t).view.read (Elt Ideal) X y = X k := by
  obtain ⟨a0, a1, b0, b1, c0, c1, d0, d1, e0, e1, f0, f1, g0, g1, h0, h1⟩ := index_facts t
  rw [View.read_apply]
  show X _ = X k
  refine congrArg X ?_
  funext a
  apply Fin.ext
  match a with
  | ⟨0, _⟩ => show win0_7.index t (0 : Fin 2) * 4000 + 1 * (y 0).val = (k 0).val; rw [hk0]; omega
  | ⟨1, _⟩ => show win0_7.index t (1 : Fin 2) * 128 + 1 * (y 1).val = (k 1).val; rw [hk1]; omega

/-- A buffer B is rows 4000·t … 4000·t + 3999 of an array G as soon as it is so entry by entry: what step t writes
    back of B (all of it: the output's blocks are never clipped) is then block t of G. Both B and G are arbitrary. -/
theorem out_block_ext (B : S4000x128.Idx → EReal) (G : S100000x128.Idx → EReal) (t : Fin cfg0.N)
    (h : ∀ (p : Fin 4000) (q : Fin 128) (r : Fin 100000), r.val = 4000 * t.val + p.val → B (ix2 p q) = G (ix2 r q)) :
    (cfg0.win 7).cut (grid0.coords t) B = ((cfg0.win 7).blk t).view.read (Elt Ideal) G := by
  have hN : grid0.N = 25 := N_0
  have ht : t.val < 25 := by have h1 : t.val < grid0.N := t.isLt; omega
  funext j
  have hp : (j 0).val < 4000 := (j 0).isLt
  have hq : (j 1).val < 128 := (j 1).isLt
  rw [out_read G t j (ix2 (⟨4000 * t.val + (j 0).val, by omega⟩ : Fin 100000) (⟨(j 1).val, hq⟩ : Fin 128)) rfl rfl]
  refine Eq.trans ?_ (h ⟨(j 0).val, hp⟩ ⟨(j 1).val, hq⟩ ⟨4000 * t.val + (j 0).val, by omega⟩ rfl)
  show B _ = B _
  refine congrArg B ?_
  funext a
  apply Fin.ext
  match a with
  | ⟨0, _⟩ => rfl
  | ⟨1, _⟩ => rfl

end Cert.SageLayer.Kernel

end
-- ==== Proof.Flushed.lean ====
/-
  What a grid step writes back. Step t's buffer, entry (p, q), is the step's arithmetic of its staged blocks; each
  block entry is an array entry — rows 4000·t + p of the features and the sums, the weights and bias rows at the
  same place — so the buffer is rows 4000·t … 4000·t + 3999 of ONE array: the layer over the arrays as the grid finds
  them.
-/
import proofs.«117386_j25460566130852_1_alg».proof.Proof.Gen.KernelIdeal.Value
import proofs.«117386_j25460566130852_1_alg».proof.Proof.Staged
import proofs.«117386_j25460566130852_1_alg».proof.Proof.BlockReads
import Idealize.ShloMosaic.Lib.Pipeline.Value
import Idealize.ShloMosaic.Lib.ValueIdx

noncomputable section

namespace Cert.SageLayer.Kernel

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The layer over the arrays as the grid finds them: the features, their neighbourhood sums, the three transposed
    weights and the two bias rows. -/
abbrev found (c : Dev nD) : S100000x128.Idx → EReal :=
  staged (V m c main_arg0) (V m c main_v13) (V m c main_v15) (V m c main_v20) (V m c main_v17) (V m c main_v19)
    (V m c main_v21)

/-- Entry (p, q) of step t's buffer is entry (4000·t + p, q) of the layer. -/
theorem stored_entry (c : Dev nD) (t : Fin cfg0.N) (p : Fin 4000) (q : Fin 128) (r : Fin 100000)
    (hr : r.val = 4000 * t.val + p.val) :
    out0_7 (iblk m c 0 t) (iblk m c 1 t) (iblk m c 2 t) (iblk m c 3 t) (iblk m c 4 t) (iblk m c 5 t) (iblk m c 6 t)
        (ix2 p q) = found m c (ix2 r q) := by
  refine (stored_apply (iblk m c 0 t) (iblk m c 1 t) (iblk m c 2 t) (iblk m c 3 t) (iblk m c 4 t) (iblk m c 5 t)
    (iblk m c 6 t) p q).trans ?_
  simp only [found, staged_apply, stagedEntry,
    fun k : Fin 128 => features_block m c t (ix2 p k) (ix2 r k) hr rfl,
    fun k : Fin 128 => sums_block m c t (ix2 p k) (ix2 r k) hr rfl,
    fun k : Fin 128 => wl_block m c t (ix2 k q) (ix2 k q) rfl rfl,
    fun k : Fin 128 => wr_block m c t (ix2 k q) (ix2 k q) rfl rfl,
    fun k : Fin 128 => wres_block m c t (ix2 k q) (ix2 k q) rfl rfl,
    bl_block m c t (ix2 (0 : Fin 1) q) (ix2 (0 : Fin 1) q) rfl rfl,
    bres_block m c t (ix2 (0 : Fin 1) q) (ix2 (0 : Fin 1) q) rfl rfl]

/-- Step t writes back rows 4000·t … 4000·t + 3999 of the layer. -/
theorem flushed_eq (c : Dev nD) (t : Fin cfg0.N) :
    (dats m 0 c).flushed 7 t = ((cfg0.win 7).blk t).view.read (Elt Ideal) (found m c) := by
  rw [Value.flushed7]
  exact out_block_ext
    (out0_7 (iblk m c 0 t) (iblk m c 1 t) (iblk m c 2 t) (iblk m c 3 t) (iblk m c 4 t) (iblk m c 5 t) (iblk m c 6 t))
    (found m c) t (fun p q r hr => stored_entry m c t p q r hr)

end Cert.SageLayer.Kernel

end
-- ==== Proof.Cover.lean ====
/-
  The output array after the run. Step t's block of the output is rows 4000·t … 4000·t + 3999, all 128 columns; the
  25 blocks tile the 100000 rows (row r is in block r / 4000), and each step writes back its rows of the layer, so
  the array ends holding the layer everywhere.
-/
import proofs.«117386_j25460566130852_1_alg».proof.Proof.Gen.KernelIdeal.Value
import proofs.«117386_j25460566130852_1_alg».proof.Proof.Flushed
import Idealize.ShloMosaic.Lib.Pipeline.Value

set_option maxRecDepth 16384

noncomputable section

namespace Cert.SageLayer.Kernel

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- An index of the output array is in step t's block iff its row is among the step's 4000 rows. -/
theorem mem_block (t : Fin cfg0.N) (i : S100000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v22).slice (win0_7.rect t)).set ↔ _
  rw [View.set_slice_whole, Rect.mem_set_unit]
  exact Iff.rfl

/-- The 25 row blocks tile the array: row r is in step r / 4000's block. -/
theorem covered (i : S100000x128.Idx) :
    ∃ t : Fin cfg0.N, (cfg0.win 7).flush t = true ∧ i ∈ ((cfg0.win 7).blk t).view.set := by
  have hN : grid0.N = 25 := N_0
  have hi0 : (i 0).val < 100000 := (i 0).isLt
  have hi1 : (i 1).val < 128 := (i 1).isLt
  refine ⟨⟨(i 0).val / 4000, by show (i 0).val / 4000 < grid0.N; omega⟩, flush0_7 _, ?_⟩
  obtain ⟨-, -, -, -, -, -, -, -, -, -, -, -, -, -, h0, h1⟩ := index_facts ⟨(i 0).val / 4000, by show (i 0).val / 4000 < grid0.N; omega⟩
  rw [mem_block]
  intro a
  match a with
  | ⟨0, _⟩ =>
    show win0_7.index _ (0 : Fin 2) * 4000 ≤ (i 0).val ∧ (i 0).val < win0_7.index _ (0 : Fin 2) * 4000 + 4000
    rw [h0]; show (i 0).val / 4000 * 4000 ≤ (i 0).val ∧ (i 0).val < (i 0).val / 4000 * 4000 + 4000; omega
  | ⟨1, _⟩ =>
    show win0_7.index _ (1 : Fin 2) * 128 ≤ (i 1).val ∧ (i 1).val < win0_7.index _ (1 : Fin 2) * 128 + 128
    rw [h1]; omega

/-- So after the run the output array is the layer over the arrays as the grid finds them. -/
theorem final (c : Dev nD) : (dats m 0 c).arrAt 7 cfg0.N = found m c :=
  (dats m 0 c).arrAt_eq_of_cover 7 (found m c) (fun t _ => flushed_eq m c t) (covered)

end Cert.SageLayer.Kernel

end
-- ==== Proof.FoundArrays.lean ====
/-
  The arrays as the grid finds them, in terms of the program's arguments. Before its grid the program transposes
  each weight matrix and narrows it to a shorter float format — over the extended reals the narrowing changes
  nothing, so entry (k, j) of what is staged is the weight's entry (j, k) — and lays each bias out as a row, whose
  entry (0, j) is the bias at j; the features are staged as given. With these, the layer over the staged arrays is the
  layer of the arguments themselves. The neighbourhood sums are left as the one array the program computed.
-/
import proofs.«117386_j25460566130852_1_alg».proof.Proof.Gen.KernelIdeal.Frame
import proofs.«117386_j25460566130852_1_alg».proof.Proof.Flushed
import proofs.«117386_j25460566130852_1_alg».proof.Proof.LibRowOps
import proofs.«117386_j25460566130852_1_alg».proof.Proof.Spec
import Idealize.ShloMosaic.Lib.StableHlo.Run
import Idealize.ShloMosaic.Lib.Pipeline.Value
import Idealize.ShloMosaic.Lib.ValueIdx

noncomputable section

namespace Cert.SageLayer.Kernel

open Cert.KernelIdeal Cert.KernelIdeal.Gen
open Idealize.ShloMosaic Idealize.ShloMosaic.TcCoe Idealize.SL.Sem Idealize.ShloMosaic.ValueIdx
open Idealize.ShloMosaic.Pipeline (Dat)

open Idealize.ShloMosaic.StableHlo

variable (m : (ℓ : Loc nD τ sig) → Buf (Elt Ideal) ℓ)

/-! ## What each staged array is -/

/-- The first staged weight is the first weight matrix transposed, then narrowed to a shorter float format (which changes no entry over the extended reals): its entry (k, j) is the weight's entry (j, k). -/
theorem found_wl_apply (c : Dev nD) (k j : Fin 128) :
    (V m c main_v15 : S128x128.Idx → EReal) (ix2 k j) = ((m ((c : Thread nD τ).loc main_arg2)) : S128x128.Idx → EReal) (ix2 j k) := by
  have e : @Eq (S128x128.Idx → EReal) (V m c main_v15)
      (truncf (F := Ideal) .bf16
        (transpose S128x128 [1, 0] ((m ((c : Thread nD τ).loc main_arg2)) : S128x128.Idx → EReal) transposes_S128x128_S128x128_1_0)
        bitsLt_bf16_f32) := by
    dsimp only [Gen.V, Gen.hostOps0]
    after_results <;> rfl
  rw [e]
  show transpose S128x128 [1, 0] _ transposes_S128x128_S128x128_1_0 (ix2 k j) = _
  exact transpose_apply [1, 0] _ transposes_S128x128_S128x128_1_0 (ix2 k j) (ix2 j k) (fun b => match b with
    | ⟨0, _⟩ => rfl
    | ⟨1, _⟩ => rfl)

/-- The second staged weight, entry (k, j): the second weight's entry (j, k). -/
theorem found_wr_apply (c : Dev nD) (k j : Fin 128) :
    (V m c main_v17 : S128x128.Idx → EReal) (ix2 k j) = ((m ((c : Thread nD τ).loc main_arg4)) : S128x128.Idx → EReal) (ix2 j k) := by
  have e : @Eq (S128x128.Idx → EReal) (V m c main_v17)
      (truncf (F := Ideal) .bf16
        (transpose S128x128 [1, 0] ((m ((c : Thread nD τ).loc main_arg4)) : S128x128.Idx → EReal) transposes_S128x128_S128x128_1_0)
        bitsLt_bf16_f32) := by
    dsimp only [Gen.V, Gen.hostOps0]
    after_results <;> rfl
  rw [e]
  show transpose S128x128 [1, 0] _ transposes_S128x128_S128x128_1_0 (ix2 k j) = _
  exact transpose_apply [1, 0] _ transposes_S128x128_S128x128_1_0 (ix2 k j) (ix2 j k) (fun b => match b with
    | ⟨0, _⟩ => rfl
    | ⟨1, _⟩ => rfl)

/-- The third staged weight, entry (k, j): the third weight's entry (j, k). -/
theorem found_wres_apply (c : Dev nD) (k j : Fin 128) :
    (V m c main_v19 : S128x128.Idx → EReal) (ix2 k j) = ((m ((c : Thread nD τ).loc main_arg5)) : S128x128.Idx → EReal) (ix2 j k) := by
  have e : @Eq (S128x128.Idx → EReal) (V m c main_v19)
      (truncf (F := Ideal) .bf16
        (transpose S128x128 [1, 0] ((m ((c : Thread nD τ).loc main_arg5)) : S128x128.Idx → EReal) transposes_S128x128_S128x128_1_0)
        bitsLt_bf16_f32) := by
    dsimp only [Gen.V, Gen.hostOps0]
    after_results <;> rfl
  rw [e]
  show transpose S128x128 [1, 0] _ transposes_S128x128_S128x128_1_0 (ix2 k j) = _
  exact transpose_apply [1, 0] _ transposes_S128x128_S128x128_1_0 (ix2 k j) (ix2 j k) (fun b => match b with
    | ⟨0, _⟩ => rfl
    | ⟨1, _⟩ => rfl)

/-- The first staged bias: the first bias vector as a row. -/
theorem found_bl (c : Dev nD) :
    @Eq (S1x128.Idx → EReal) (V m c main_v20)
      (shapeCast S1x128 ((m ((c : Thread nD τ).loc main_arg3)) : S128.Idx → EReal) shapeCasts_S128_S1x128) := by
  dsimp only [Gen.V, Gen.hostOps0]
  after_results <;> rfl

/-- The second staged bias: the second bias vector as a row. -/
theorem found_bres (c : Dev nD) :
    @Eq (S1x128.Idx → EReal) (V m c main_v21)
      (shapeCast S1x128 ((m ((c : Thread nD τ).loc main_arg6)) : S128.Idx → EReal) shapeCasts_S128_S1x128) := by
  dsimp only [Gen.V, Gen.hostOps0]
  after_results <;> rfl

/-! ## Read at an entry -/

/-- Entry (0, j) of a vector laid out as a row is the vector's entry j. -/
theorem row_of_apply (b : S128.Idx → EReal) (j : Fin 128) :
    shapeCast S1x128 b shapeCasts_S128_S1x128 (ix2 (0 : Fin 1) j) = b (ix1 j) :=
  Cert.KernelBody.shapeCast_row_apply b shapeCasts_S128_S1x128 j

/-! ## The layer the grid computes is the layer of the arguments -/

/-- The layer over the arrays as the grid finds them is the layer of the features, the neighbourhood sums the
    program computed, the three weights and the two biases. -/
theorem found_eq_layer (c : Dev nD) :
    found m c = layer (m ((c : Thread nD τ).loc main_arg0)) (V m c main_v13) (m ((c : Thread nD τ).loc main_arg2)) (m ((c : Thread nD τ).loc main_arg4))
      (m ((c : Thread nD τ).loc main_arg5)) (m ((c : Thread nD τ).loc main_arg3)) (m ((c : Thread nD τ).loc main_arg6)) := by
  funext i
  obtain ⟨r, j, rfl⟩ : ∃ (r : Fin 100000) (j : Fin 128), i = ix2 r j := ⟨i 0, i 1, eq_ix2 i⟩
  simp only [found, staged_apply, stagedEntry, layer_apply, entry, V_main_arg0 m c, found_wl_apply m c,
    found_wr_apply m c, found_wres_apply m c, found_bl m c, found_bres m c, row_of_apply]

end Cert.SageLayer.Kernel

end
-- ==== Proof.Sums.lean ====
/-
  The neighbourhood sums are one and the same array in both programs. Each program computes them from the features
  and the edge list by the same chain: take the source row and the target row of the edge list, wrap a negative source
  index by the number of nodes, gather the source nodes' feature rows, and add each gathered row into its target node's
  row of a zero array. The two chains are the same operations with the same dimension records applied to the same
  arguments, so they are equal as they stand; neither the gather nor the scatter-add is ever opened.
-/
import proofs.«117386_j25460566130852_1_alg».proof.Proof.Gen.KernelIdeal.Frame
import proofs.«117386_j25460566130852_1_alg».proof.Proof.Gen.ReferenceIdeal.Read
import Idealize.ShloMosaic.Lib.StableHlo.Run

noncomputable section

namespace Cert.SageLayer.Kernel

open Cert.KernelIdeal Cert.KernelIdeal.Gen
open Idealize.ShloMosaic Idealize.ShloMosaic.TcCoe Idealize.SL.Sem Idealize.ShloMosaic.ValueIdx
open Idealize.ShloMosaic.Pipeline (Dat)

open Idealize.ShloMosaic.StableHlo

variable (m : (ℓ : Loc nD τ sig) → Buf (Elt Ideal) ℓ)

/-- The gather's dimension record is the same in both programs. -/
theorem gather_dims_eq :
    gather_S100000x128_S1600000x1_S1600000x128_1_0_n_n_0_1_1128 = Cert.ReferenceIdeal.gather_S100000x128_S1600000x1_S1600000x128_1_0_n_n_0_1_1128 := rfl

/-- The scatter-add's dimension record is the same in both programs. -/
theorem scatter_dims_eq :
    scatter_S100000x128_S1600000x1_S1600000x128_1_0_0_1 = Cert.ReferenceIdeal.scatter_S100000x128_S1600000x1_S1600000x128_1_0_0_1 := rfl

/-- The neighbourhood sums the grid finds are the other program's scatter stage of the same features and edge list. -/
theorem found_sums (c : Dev nD) :
    (V m c main_v13 : S100000x128.Idx → EReal)
      = Cert.ReferenceIdeal.Read.val_main_v13 (F := Ideal) (m ((c : Thread nD τ).loc main_arg0)) (m ((c : Thread nD τ).loc main_arg1)) := by
  dsimp only [Gen.V, Gen.hostOps0]
  after_results
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
  rw [gather_dims_eq, scatter_dims_eq]
  rfl

end Cert.SageLayer.Kernel

end
-- ==== Proof.Consts.lean ====
/-
  The float constants the two programs spell, as the extended reals their bit patterns denote, and the one
  numerical law that joins the programs. The residual weight is the single-precision number nearest to 0.001,
  which is exactly w = 8589935 / 2^33. One program multiplies the residual branch by a constant standing for the
  rational 1 - w = 8581344657 / 2^33; the other forms the difference 1 - w of the two patterns when it runs. On
  the extended reals that difference of two reals is the real difference, so the two factors are one number.
-/
import Idealize.ShloMosaic.PureOps.Ideal

noncomputable section

namespace Cert.Weights

open Idealize.ShloMosaic

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of the residual weight (sign 0, exponent 117, fraction 201327) denotes
    (2^23 + 201327) · 2^(117 - 127 - 23) = 8589935 / 2^33. -/
theorem ofBits_weight : Ideal.ofBits .f32 0x3A83126F#32 = ((8589935 / 8589934592 : ℝ) : EReal) := by
  simp [Ideal.ofBits, Ideal.ieee, -EReal.coe_mul]; norm_num

/-- One minus the residual weight, formed on the extended reals from the two patterns, is the rational
    8581344657 / 2^33: both are reals, and 2^33 - 8589935 = 8581344657. -/
theorem one_sub_weight :
    Ideal.ofBits .f32 0x3F800000#32 - Ideal.ofBits .f32 0x3A83126F#32 = ((8581344657 / 8589934592 : ℝ) : EReal) := by
  rw [ofBits_one, ofBits_weight, ← EReal.coe_sub]
  congr 1
  norm_num

end Cert.Weights

end
-- ==== Proof.RefLayer.lean ====
/-
  The reference program computes the layer: read one operation at a time, its result at entry (r, j) is the
  specification's entry. Each of its three matrix products contracts a row of the left operand with a row of the
  weight matrix (the program transposes the weight first, so column j of the transpose is row j of the weight);
  each bias is laid out as a row and repeated down the nodes, so entry (r, j) of it is the bias at j; the residual
  weight is repeated over the whole array, and so is the scalar difference of the patterns of 1 and of the weight,
  which is the rational 1 - w. The neighbourhood sums enter only through their entries: they are carried as one
  array and never opened.
-/
import proofs.«117386_j25460566130852_1_alg».proof.Proof.Gen.ReferenceIdeal.Read
import proofs.«117386_j25460566130852_1_alg».proof.Proof.Spec
import proofs.«117386_j25460566130852_1_alg».proof.Proof.Consts

noncomputable section

namespace Cert.SageLayer.Reference

open Cert.ReferenceIdeal Cert.ReferenceIdeal.Gen Cert.ReferenceIdeal.Read
open Idealize.ShloMosaic Idealize.ShloMosaic.ValueIdx

/-! ## Where each operand is read -/

/-- The left operand of a product at output entry (r, j), contracted coordinate k: entry (r, k). -/
theorem left15 (r : Fin 100000) (j k : Fin 128) : lidx_main_v15 (ix2 r j) k = ix2 r k :=
  funext fun a => Fin.ext (by match a with | ⟨0, _⟩ => rfl | ⟨1, _⟩ => rfl)
theorem left20 (r : Fin 100000) (j k : Fin 128) : lidx_main_v20 (ix2 r j) k = ix2 r k :=
  funext fun a => Fin.ext (by match a with | ⟨0, _⟩ => rfl | ⟨1, _⟩ => rfl)
theorem left23 (r : Fin 100000) (j k : Fin 128) : lidx_main_v23 (ix2 r j) k = ix2 r k :=
  funext fun a => Fin.ext (by match a with | ⟨0, _⟩ => rfl | ⟨1, _⟩ => rfl)

/-- The right operand is the transposed weight at (k, j): the weight at (j, k). -/
theorem right15 (r : Fin 100000) (j k : Fin 128) : idx_main_v14 (ridx_main_v15 (ix2 r j) k) = ix2 j k :=
  funext fun a => Fin.ext (by match a with | ⟨0, _⟩ => rfl | ⟨1, _⟩ => rfl)
theorem right20 (r : Fin 100000) (j k : Fin 128) : idx_main_v19 (ridx_main_v20 (ix2 r j) k) = ix2 j k :=
  funext fun a => Fin.ext (by match a with | ⟨0, _⟩ => rfl | ⟨1, _⟩ => rfl)
theorem right23 (r : Fin 100000) (j k : Fin 128) : idx_main_v22 (ridx_main_v23 (ix2 r j) k) = ix2 j k :=
  funext fun a => Fin.ext (by match a with | ⟨0, _⟩ => rfl | ⟨1, _⟩ => rfl)

/-- A bias laid out as a row and repeated down the nodes is read, at (r, j), at j. -/
theorem bias17 (r : Fin 100000) (j : Fin 128) : idx_main_v16 (idx_main_v17 (ix2 r j)) = ix1 j :=
  funext fun a => Fin.ext (by match a with | ⟨0, _⟩ => rfl)
theorem bias25 (r : Fin 100000) (j : Fin 128) : idx_main_v24 (idx_main_v25 (ix2 r j)) = ix1 j :=
  funext fun a => Fin.ext (by match a with | ⟨0, _⟩ => rfl)

/-! ## The result stage is the layer -/

/-- The reference's last stage, as a function of its seven arguments, is the layer of the features, their
    neighbourhood sums (the scatter stage, kept whole), the three weights and the two biases. -/
theorem result_is_layer (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal)) :
    val_main_v32 (F := Ideal) x0 x1 x2 x3 x4 x5 x6
      = layer x0 (val_main_v13 (F := Ideal) x0 x1) x2 x4 x5 x3 x6 := by
  funext i
  obtain ⟨r, j, rfl⟩ : ∃ (r : Fin 100000) (j : Fin 128), i = ix2 r j := ⟨i 0, i 1, eq_ix2 i⟩
  rw [layer_apply, val_main_v32_apply, val_main_v28_apply, val_main_v31_apply, val_main_v27_apply, val_main_cst_1_apply,
    val_main_v30_apply, val_main_v29_apply, val_main_cst_2_apply, val_main_cst_3_apply,
    val_main_v21_apply, val_main_v18_apply, val_main_v15_apply, val_main_v17_apply, val_main_v16_apply,
    val_main_v20_apply, val_main_v26_apply, val_main_v23_apply, val_main_v25_apply, val_main_v24_apply]
  simp only [val_main_v14_apply, val_main_v19_apply, val_main_v22_apply, left15, left20, left23, right15, right20,
    right23, bias17, bias25, Ideal.addf_def, Ideal.mulf_def, Ideal.subf_def, Ideal.ofBits_def,
    Cert.Weights.one_sub_weight]
  rfl

end Cert.SageLayer.Reference

end
-- ==== Proof.lean ====
/- A graph layer that mixes, for every node, a linear map of the sum of its in-neighbours' features, a linear map of its
   own features and a residual linear map of its own features:

       out = w · ((agg · Wlᵀ + bl) + x · Wrᵀ) + (1 - w) · (x · Wresᵀ + bres),      agg(n) = Σ over edges s → n of x(s),

   with w the single-precision number nearest 0.001. One program computes agg on the host and the rest on a grid of
   25 steps of 4000 nodes, with 1 - w written as a constant; the other computes everything on the host and forms
   1 - w when it runs. Over the extended reals the two results are equal entry by entry:

   · the neighbourhood sums are the same chain of operations on the same arguments in both programs and are carried
     as one array, never opened (Proof/Sums.lean);
   · the constant stands for the rational 1 - w = 8581344657 / 2^33, and the difference of the patterns of 1 and of w
     is that rational (Proof/Consts.lean) — this is the only arithmetic fact used: sums, products and their grouping
     are the same on both sides, so nothing is asked of the inputs' finiteness;
   · on the grid, a step's store is its arithmetic of the blocks it staged (Proof/BlockEntry.lean, Proof/Staged.lean),
     a staged block is the rows 4000·t … of its array (Proof/BlockReads.lean), so a step writes back its rows of one
     array (Proof/Flushed.lean), the 25 row blocks tile the output (Proof/Cover.lean), and the staged weights and
     biases are the arguments transposed and laid out as rows (Proof/FoundArrays.lean);
   · the host program, read one operation at a time, is the same function (Proof/RefLayer.lean) — stated once, in
     Proof/Spec.lean.

   Each program also runs to completion without a fault and leaves its arguments as they were. -/
import proofs.«117386_j25460566130852_1_alg».proof.Defs
import proofs.«117386_j25460566130852_1_alg».proof.Proof.Gen.Kernel
import proofs.«117386_j25460566130852_1_alg».proof.Proof.Gen.Kernel.Skeleton
import proofs.«117386_j25460566130852_1_alg».proof.Proof.Gen.Kernel.Launch
import proofs.«117386_j25460566130852_1_alg».proof.Proof.Gen.Kernel.Points
import proofs.«117386_j25460566130852_1_alg».proof.Proof.Gen.Kernel.Frame
import proofs.«117386_j25460566130852_1_alg».proof.Proof.Gen.KernelIdeal
import proofs.«117386_j25460566130852_1_alg».proof.Proof.Gen.KernelIdeal.Skeleton
import proofs.«117386_j25460566130852_1_alg».proof.Proof.Gen.KernelIdeal.Launch
import proofs.«117386_j25460566130852_1_alg».proof.Proof.Gen.KernelIdeal.Points
import proofs.«117386_j25460566130852_1_alg».proof.Proof.Gen.KernelIdeal.Frame
import proofs.«117386_j25460566130852_1_alg».proof.Proof.Gen.ReferenceIdeal
import proofs.«117386_j25460566130852_1_alg».proof.Proof.Gen.Pre_finite_inputs
import proofs.«117386_j25460566130852_1_alg».proof.Proof.Gen.KernelIdeal.Value
import proofs.«117386_j25460566130852_1_alg».proof.Proof.Gen.ReferenceIdeal.Run
import proofs.«117386_j25460566130852_1_alg».proof.Proof.Gen.ReferenceIdeal.Read
import proofs.«117386_j25460566130852_1_alg».proof.Proof.Spec
import proofs.«117386_j25460566130852_1_alg».proof.Proof.Cover
import proofs.«117386_j25460566130852_1_alg».proof.Proof.FoundArrays
import proofs.«117386_j25460566130852_1_alg».proof.Proof.Sums
import proofs.«117386_j25460566130852_1_alg».proof.Proof.RefLayer
import Idealize.ShloMosaic.Adequacy
import Idealize.ShloMosaic.Init

noncomputable section

namespace Cert.Proof

open Idealize.ShloMosaic Idealize.ShloMosaic.TcCoe Idealize.SL.Sem

/-- The word-level program runs, faults nowhere and leaves its arguments unchanged. -/
theorem frame_kernel : Cert.frame_Kernel := fun m ρ _ => Cert.Kernel.Gen.frame m ρ

/-- So does the program read over the extended reals. -/
theorem frame_kernel_ideal : Cert.frame_KernelIdeal := fun m ρ _ => Cert.KernelIdeal.Gen.frame m ρ

/-- The host program's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The one constant read as a rational: the table gives the name the value 8581344657 / 2^33. -/
theorem preserves : Cert.preserves_Kernel_KernelIdeal :=
  IdealRules.named_const.statement Cert.KernelIdeal.κ "one_minus_rw" .f32 0x3F7FBE77#32
    ((8581344657 / 8589934592 : ℝ) : EReal) rfl

/-- From memories that agree on the seven arguments both programs end with the layer of those arguments: the grid's
    output array is the layer over the arrays it finds, which are the arguments transposed and laid out, with the
    same neighbourhood sums; the host's last stage is the layer of its arguments. -/
theorem algebraic : Cert.algebraic_KernelIdeal_ReferenceIdeal := by
  intro m ρ m' ρ' _ hagree
  refine ⟨fun c => Cert.SageLayer.layer (m ((c.tc : Thread Cert.KernelIdeal.nD Cert.KernelIdeal.τ).loc Cert.KernelIdeal.main_arg0))
      (Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Value.run_blocks m ρ)
    rw [Cert.SageLayer.Kernel.final m c, Cert.SageLayer.Kernel.found_eq_layer m c, Cert.SageLayer.Kernel.found_sums m c]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, Cert.SageLayer.Reference.result_is_layer, (hagree c).1,
      (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
